-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x1 : Shape := ⟨2, ![1024, 1]⟩
abbrev S1024x256 : Shape := ⟨2, ![1024, 256]⟩
abbrev S1x1024 : Shape := ⟨2, ![1, 1024]⟩
abbrev S1024 : Shape := ⟨1, ![1024]⟩
abbrev S4096x256 : Shape := ⟨2, ![4096, 256]⟩
abbrev S4096 : Shape := ⟨1, ![4096]⟩

abbrev nBuf : Space → Nat
  | .hbm => 48
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x8192, .i32⟩
  | .hbm, ⟨7, _⟩ => ⟨S8192x1, .f32⟩
  | .hbm, ⟨8, _⟩ => ⟨S8192, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .i1⟩
  | .hbm, ⟨28, _⟩ => ⟨S4096, .i1⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S8192x256, .f32⟩
  | .local _ .vmem, ⟨1, _⟩ => ⟨S8192x1, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v9 : Index := Scalar.indexCast v6
  let c0_2 : Index := 0#32
  ![v9.toNat, 0]
def k0_off3 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v11 : Index := Scalar.indexCast v4
  let c0_3 : Index := 0#32
  ![v11.toNat, 0]
def k0_off4 (i : grid0.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v14 : Index := Scalar.indexCast v6
  let c0_4 : Index := 0#32
  ![v14.toNat, 0]
def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024x256 : 0 < S1024x256.numel
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  bcast_S_S4096 : S_.BroadcastsInDim S4096 (![] : Fin 0 → Fin S4096.rank)
  slices_S8192_S4096_0 : S8192.Slices ![0] S4096
  slices_S8192_S4096_4096 : S8192.Slices ![4096] S4096
  reducesTo_S4096_S_d0 : S4096.ReducesTo [0] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x256.size a ≤ S8192x256.size a
  k0_off2_inb : ∀ i : grid0.Coords, ∀ a, (k0_off2 i) a + S1024x256.size a ≤ S8192x256.size a
  k0_off3_inb : ∀ i : grid0.Coords, ∀ a, (k0_off3 i) a + S1024x1.size a ≤ S8192x1.size a
  k0_off4_inb : ∀ i : grid0.Coords, ∀ a, (k0_off4 i) a + S1024x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .f32 = 32 ∨ (Rect.block (s := S8192x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S256x8192 : Shape := ⟨2, ![256, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 84
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .i1⟩
  | .hbm, ⟨64, _⟩ => ⟨S4096, .i1⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_call1_v0 : Ref sig .tc := ⟨.hbm, 70, rfl⟩
abbrev main_call1_v1 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_c_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S8192_S4096_0 : S8192.Slices ![0] S4096
  slices_S8192_S4096_4096 : S8192.Slices ![4096] S4096
  natLt_1_32 : 1 < 32
  reducesTo_S4096_S_d0 : S4096.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Spec.lean ====
/-
  The loss both programs compute, as functions of the two argument arrays: an embedding matrix
  `E` (8192 rows of 256 extended reals) and a mask `M` (8192 x 8192 bits).

  For rows `r`, `c`:  `sqn r = 0 + sum_k E[r,k]^2`,  `gram r c = sum_k E[r,k] E[c,k]`,
  `dist r c = sqrt (max (sqn r + sqn c - 2 gram r c) 0 + eps)`,
  `term r c = exp (1/2 - dist r c)` where the mask bit `M[r,c]` is set and `0` elsewhere,
  `rowsum r = 0 + sum_c term r c`.  With `n = 4096`, anchor `i < n` has positive `i + n`:
  `j i = log (rowsum i + rowsum (i + n)) + dist i (i + n)`, and the loss is the mean over the
  anchors of `max (j i) 0 ^ 2`, halved (`tail`).

  The two programs differ in two places only.  One sums a row of `term` over the 8192 columns in
  one sum (`rowsum`), the other in 8 column tiles of 1024 accumulated one after the other
  (`krow`).  One takes the anchor-positive distance from the Gram form (`apRef`), the other from
  the squared difference of the two rows (`apKer`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The embedding matrix and the mask, as arrays over their index sets. -/
abbrev EArr : Type := (⟨2, ![8192, 256]⟩ : Shape).Idx → EReal
abbrev MArr : Type := (⟨2, ![8192, 8192]⟩ : Shape).Idx → BitVec 1

/-- The four float constants of the two programs: the extended reals their words denote
    (`0`, `2`, `1/2` and the single-precision neighbour of `1e-12`). -/
def zero : EReal := Ideal.ofBits .f32 0x00000000#32
def two : EReal := Ideal.ofBits .f32 0x40000000#32
def half : EReal := Ideal.ofBits .f32 0x3F000000#32
def eps : EReal := Ideal.ofBits .f32 0x2B8CBCCC#32

/-- The squared norm of row `r`, as the host sums it: from `0`. -/
def sqn (E : EArr) (r : Fin 8192) : EReal := zero + ∑ k : Fin 256, E (ix2 r k) * E (ix2 r k)

/-- The inner product of rows `r` and `c`. -/
def gram (E : EArr) (r c : Fin 8192) : EReal := ∑ k : Fin 256, E (ix2 r k) * E (ix2 c k)

/-- The regularised Euclidean distance of rows `r` and `c`, from the Gram form. -/
def dist (E : EArr) (r c : Fin 8192) : EReal :=
  Ideal.sqrt (max (sqn E r + sqn E c - two * gram E r c) zero + eps)

/-- Entry `(r, c)` of the masked matrix of `exp (1/2 - dist)`. -/
def term (E : EArr) (M : MArr) (r c : Fin 8192) : EReal :=
  Scalar.select (M (ix2 r c)) (Ideal.exp (half - dist E r c)) zero

/-- Row `r` of the masked matrix summed over all 8192 columns at once, from `0`. -/
def rowsum (E : EArr) (M : MArr) (r : Fin 8192) : EReal := zero + ∑ c : Fin 8192, term E M r c

/-- Column `c` of column tile `j` (tiles of 1024 columns). -/
def colAt (j : Fin 8) (c : Fin 1024) : Fin 8192 := ⟨1024 * j.val + c.val, by omega⟩

/-- Row `r` of the masked matrix summed over the columns of tile `j`. -/
def tileSum (E : EArr) (M : MArr) (r : Fin 8192) (j : Fin 8) : EReal :=
  ∑ c : Fin 1024, term E M r (colAt j c)

/-- The accumulator of row `r` after the first `n` column tiles: it starts at `0` and each tile
    adds its sum. -/
def kacc (E : EArr) (M : MArr) (r : Fin 8192) : ℕ → EReal
  | 0 => zero
  | n + 1 => kacc E M r n + (if h : n < 8 then tileSum E M r ⟨n, h⟩ else zero)

/-- Row `r` summed tile by tile: the accumulator after all 8 tiles. -/
def krow (E : EArr) (M : MArr) (r : Fin 8192) : EReal := kacc E M r 8

/-- Anchor `i` and its positive `i + 4096`, as rows. -/
def lo (i : Fin 4096) : Fin 8192 := ⟨i.val, by omega⟩
def hi (i : Fin 4096) : Fin 8192 := ⟨i.val + 4096, by omega⟩

/-- The anchor-positive distance read off the distance matrix. -/
def apRef (E : EArr) (i : Fin 4096) : EReal := dist E (lo i) (hi i)

/-- The anchor-positive distance from the squared difference of the two rows. -/
def apKer (E : EArr) (i : Fin 4096) : EReal :=
  Ideal.sqrt (max (zero + ∑ k : Fin 256,
    (E (ix2 (lo i) k) - E (ix2 (hi i) k)) * (E (ix2 (lo i) k) - E (ix2 (hi i) k))) zero + eps)

/-- The per-anchor value `log (rs i + rs (i + 4096)) + ap i`, as an array over the 4096 anchors. -/
def jvec (rs : Fin 8192 → EReal) (ap : Fin 4096 → EReal) : FVec Ideal ⟨1, ![4096]⟩ .f32 :=
  fun i => Ideal.log (rs (lo (i 0)) + rs (hi (i 0))) + ap (i 0)

/-- What both programs do with the per-anchor values `jv`: an anchor is valid when `jv` equals
    itself; the loss is the sum over the valid anchors of `max jv 0` squared, divided by the number
    of valid anchors (at least 1) and then by 2.  The shape relations its operations ask for are
    arguments, so that either program's own evidence can be supplied. -/
def tail (hb : (⟨0, ![]⟩ : Shape).BroadcastsInDim ⟨1, ![4096]⟩ (![] : Fin 0 → Fin 1))
    (hr : (⟨1, ![4096]⟩ : Shape).ReducesTo [0] ⟨0, ![]⟩) (hS : 0 < (⟨0, ![]⟩ : Shape).numel) (hlt : 1 < 32)
    (jv : FVec Ideal ⟨1, ![4096]⟩ .f32) : FVec Ideal ⟨0, ![]⟩ .f32 :=
  Host.divf (F := Ideal)
    (Host.divf (F := Ideal)
      (Host.reduceAdd (F := Ideal)
        (select (noti (cmpf .une jv jv))
          (mulf (maximumf jv (broadcastInDim ⟨1, ![4096]⟩ ![] hb (constant (F := Ideal) ⟨0, ![]⟩ .f32 0x00000000#32)))
            (maximumf jv (broadcastInDim ⟨1, ![4096]⟩ ![] hb (constant (F := Ideal) ⟨0, ![]⟩ .f32 0x00000000#32))))
          (broadcastInDim ⟨1, ![4096]⟩ ![] hb (id (constant (F := Ideal) ⟨0, ![]⟩ .f32 0x00000000#32))))
        (constant (F := Ideal) ⟨0, ![]⟩ .f32 0x00000000#32) hr hS)
      (sitofp (F := Ideal) .f32
        (maxsi (Host.reduce IntOp.addi (extui 32 (noti (cmpf .une jv jv)) hlt) (constantI ⟨0, ![]⟩ 32 0#32) hr hS)
          (constantI ⟨0, ![]⟩ 32 1#32))))
    (constant (F := Ideal) ⟨0, ![]⟩ .f32 0x40000000#32)

end Cert.Spec

end
-- ==== Proof.Algebra.lean ====
/-
  The algebra that joins the two ways of computing the loss.

  (1) Summing a row of the masked matrix over the 8192 columns at once equals accumulating the
      sums of its 8 column tiles of 1024 columns one after the other: addition of extended reals
      is a commutative monoid, and every column `n` is `1024 j + c` for exactly one `(j, c)`.
  (2) For rows of finite entries the squared difference of two rows equals the Gram form
      `|a|^2 + |b|^2 - 2 <a, b>`: both sides are images of real numbers, and the identity is the
      binomial formula summed over the 256 coordinates.
-/
import proofs.«181075_j26792005992920_2_alg».proof.Proof.Spec
import Mathlib.Data.EReal.Basic
import Mathlib.Data.EReal.Operations
import Mathlib.Algebra.BigOperators.Fin
import Mathlib.Logic.Equiv.Fin.Basic
import Mathlib.Tactic

noncomputable section

namespace Cert.Spec

open Idealize.ShloMosaic Idealize.ShloMosaic.ValueIdx
open scoped BigOperators

/-! ## The constants -/

/-- The word `0x00000000` denotes `0`. -/
theorem zero_eq : zero = 0 := Ideal.ofBits_zero_f32

/-- The word `0x40000000` denotes `2`: sign `+`, exponent field `128`, fraction `0`, that is
    `2^23 * 2^(128 - 127 - 23)`. -/
theorem two_eq : two = ((2 : ℝ) : EReal) := by
  unfold two
  simp [Ideal.ofBits, Ideal.ieee, -EReal.coe_mul]
  norm_num

/-! ## Tiles of columns -/

/-- Every column is column `c` of tile `j` for exactly one pair `(j, c)`. -/
def tileEquiv : Fin 8 × Fin 1024 ≃ Fin 8192 where
  toFun p := colAt p.1 p.2
  invFun n := (⟨n.val / 1024, by have := n.isLt; omega⟩, ⟨n.val % 1024, by omega⟩)
  left_inv p := by
    rcases p with ⟨j, c⟩
    have hj := j.isLt
    have hc := c.isLt
    apply Prod.ext
    · apply Fin.ext
      show (1024 * j.val + c.val) / 1024 = j.val
      omega
    · apply Fin.ext
      show (1024 * j.val + c.val) % 1024 = c.val
      omega
  right_inv n := by
    apply Fin.ext
    show 1024 * (n.val / 1024) + n.val % 1024 = n.val
    omega

/-- A sum over the 8192 columns is the sum over the 8 tiles of the sums over each tile's 1024
    columns. -/
theorem sum_tiles (f : Fin 8192 → EReal) :
    ∑ n : Fin 8192, f n = ∑ j : Fin 8, ∑ c : Fin 1024, f (colAt j c) := by
  rw [← Fintype.sum_prod_type' (fun j c => f (colAt j c))]
  exact (Fintype.sum_equiv tileEquiv (fun p => f (colAt p.1 p.2)) f (fun _ => rfl)).symm

/-- The accumulator after `n` tiles is `0` plus the sum of the first `n` tile sums. -/
theorem kacc_eq (E : EArr) (M : MArr) (r : Fin 8192) (n : ℕ) :
    kacc E M r n = zero + ∑ j ∈ Finset.range n, (if h : j < 8 then tileSum E M r ⟨j, h⟩ else zero) := by
  induction n with
  | zero => simp [kacc]
  | succ n ih => rw [kacc, ih, Finset.sum_range_succ, add_assoc]

/-- The row summed tile by tile equals the row summed at once. -/
theorem krow_eq_rowsum (E : EArr) (M : MArr) (r : Fin 8192) : krow E M r = rowsum E M r := by
  unfold krow rowsum
  rw [kacc_eq, sum_tiles, ← Fin.sum_univ_eq_sum_range
    (fun j => if h : j < 8 then tileSum E M r ⟨j, h⟩ else zero) 8]
  refine congrArg (zero + ·) (Finset.sum_congr rfl fun j _ => ?_)
  rw [dif_pos j.isLt]
  rfl

/-! ## The squared difference and the Gram form -/

/-- The image of a finite sum of reals is the sum of the images. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For two families of finite extended reals, `0 + sum (a - b)^2` equals
    `(0 + sum a^2) + (0 + sum b^2) - 2 * sum a b`: every entry is the image of a real number, so
    both sides are images of real numbers, and there the identity is the binomial formula summed
    over the index set. -/
theorem sqdiff_eq_gram {ι : Type*} [Fintype ι] (a b : ι → EReal)
    (ha : ∀ k, a k ≠ ⊤ ∧ a k ≠ ⊥) (hb : ∀ k, b k ≠ ⊤ ∧ b k ≠ ⊥) :
    (0 : EReal) + ∑ k, (a k - b k) * (a k - b k)
      = ((0 : EReal) + ∑ k, a k * a k) + ((0 : EReal) + ∑ k, b k * b k)
          - ((2 : ℝ) : EReal) * ∑ k, a k * b k := by
  obtain ⟨a', rfl⟩ : ∃ a' : ι → ℝ, a = fun k => ((a' k : ℝ) : EReal) :=
    ⟨fun k => (a k).toReal, funext fun k => (EReal.coe_toReal (ha k).1 (ha k).2).symm⟩
  obtain ⟨b', rfl⟩ : ∃ b' : ι → ℝ, b = fun k => ((b' k : ℝ) : EReal) :=
    ⟨fun k => (b k).toReal, funext fun k => (EReal.coe_toReal (hb k).1 (hb k).2).symm⟩
  simp only [zero_add]
  simp only [← EReal.coe_sub, ← EReal.coe_mul, ← coe_finsum, ← EReal.coe_add]
  refine congrArg (fun x : ℝ => (x : EReal)) ?_
  rw [Finset.mul_sum, ← Finset.sum_add_distrib, ← Finset.sum_sub_distrib]
  exact Finset.sum_congr rfl fun k _ => by ring

/-- For a matrix of finite entries the anchor-positive distance from the squared difference of the
    two rows equals the one from the Gram form. -/
theorem apKer_eq_apRef (E : EArr) (hfin : ∀ j, E j ≠ ⊤ ∧ E j ≠ ⊥) (i : Fin 4096) :
    apKer E i = apRef E i := by
  unfold apKer apRef dist sqn gram
  refine congrArg (fun t => Ideal.sqrt (max t zero + eps)) ?_
  rw [zero_eq, two_eq]
  exact sqdiff_eq_gram (fun k => E (ix2 (lo i) k)) (fun k => E (ix2 (hi i) k))
    (fun _ => hfin _) (fun _ => hfin _)

end Cert.Spec

end
-- ==== Proof.Finite.lean ====
/-
  From the precondition to finiteness.  The precondition is the conjunction, over every entry
  `x` of the matrix, of `|x| < +inf`, where `|x|` is `max x (-x)`.  For an extended real that
  inequality excludes both infinities: `|+inf| = |-inf| = +inf`, which is not below `+inf`.
-/
import proofs.«181075_j26792005992920_2_alg».proof.Pre_finite_inputs
import proofs.«181075_j26792005992920_2_alg».proof.Proof.Gen.Pre_finite_inputs
import Idealize.ShloMosaic.Lib.ReduceAll
import Idealize.ShloMosaic.Lib.ValueIdx
import Idealize.ShloMosaic.PureOps.Ideal

noncomputable section

namespace Cert.Fin

open Idealize.ShloMosaic Idealize.ShloMosaic.ValueIdx
open Cert.Pre_finite_inputs

/-- The rank-0 shape has exactly one index. -/
instance : Subsingleton S_.Idx := ⟨fun a b => funext fun d => d.elim0⟩

/-- The word `0x7F800000` denotes `+inf`. -/
theorem inf_eq : Ideal.ofBits .f32 0x7F800000#32 = (⊤ : EReal) := by
  simp [Ideal.ofBits, Ideal.ieee]

/-- An extended real whose absolute value `max x (-x)` is strictly below `+inf` is neither
    infinity. -/
theorem finite_of_abs_lt (x : EReal)
    (h : Ideal.cmp .olt (max x (-x)) (Ideal.ofBits .f32 0x7F800000#32) = 1#1) : x ≠ ⊤ ∧ x ≠ ⊥ := by
  rw [inf_eq] at h
  unfold Ideal.cmp at h
  induction x using EReal.rec with
  | bot => simp at h
  | coe r => exact ⟨EReal.coe_ne_top r, EReal.coe_ne_bot r⟩
  | top => simp at h

/-- Under the precondition every entry of the matrix is finite. -/
theorem finite_of_pre (E : FVec Ideal Cert.Pre_finite_inputs.S8192x256 .f32)
    (M : IVec Cert.Pre_finite_inputs.S8192x8192 1)
    (h : Cert.Pre_finite_inputs.fn (F := Ideal) E M = (fun _ => 1#1)) : ∀ j, E j ≠ ⊤ ∧ E j ≠ ⊥ := by
  intro j
  have h0 := congrFun h ix0
  dsimp only [Cert.Pre_finite_inputs.fn] at h0
  have hj := Host.reduce_andi_all _ _ _ _ _ h0 j
  exact finite_of_abs_lt (E j) hj

end Cert.Fin

end
-- ==== Proof.KernelHost.lean ====
/-
  What the host lines of the kernel program make of its arrays, at the ideal instance.

  Before the region the program writes two arrays the region stages: the column of squared row
  norms of the embedding matrix (`0 + sum_k E[r,k]^2` at row `r`) and the mask widened from one
  bit to thirty-two.  After the region it reshapes the region's output column to a vector, takes the
  anchor-positive distance from the squared difference of the two halves of the rows, adds the
  logarithm of the sum of the two halves of the output vector, and applies the closing mean.
-/
import proofs.«181075_j26792005992920_2_alg».proof.Proof.Gen.KernelIdeal.Frame
import proofs.«181075_j26792005992920_2_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelSide

open Cert.KernelIdeal Cert.KernelIdeal.Gen Idealize.ShloMosaic Idealize.ShloMosaic.TcCoe Idealize.SL.Sem
open Idealize.ShloMosaic.StableHlo Idealize.ShloMosaic.ValueIdx
open scoped BigOperators

variable (m : (ℓ : Loc nD τ sig) → Buf (Elt Ideal) ℓ) (ρ : Dev nD → PrngReg)

/-- The squared-norm column as a term: the host's sum along the rows of the entrywise square,
    from the zero word, laid out as a column. -/
theorem V_sqn_term (c : Dev nD) :
    (V m c main_v2 : S8192x1.Idx → EReal)
      = broadcastInDim S8192x1 ![0] Facts₀.bcast_S8192_S8192x1_0
          (Host.reduceAdd (F := Ideal) (mulf (m ((c.tc : Thread nD τ).loc main_arg0)) (m ((c.tc : Thread nD τ).loc main_arg0)))
            (constant (F := Ideal) S_ .f32 0x00000000#32) Facts₀.reducesTo_S8192x256_S8192_d1 Facts₀.h_S_) := by
  show StableHlo.after hostOps0 (fun b => m (c, b)) (Proc.devRef .tc main_v2) = _
  after_results

/-- A column laid out from a vector reads, at `(r, 0)`, the vector at `r`. -/
theorem column_apply (y : FVec Ideal S8192 .f32) (j : S8192x1.Idx) :
    broadcastInDim S8192x1 ![0] Facts₀.bcast_S8192_S8192x1_0 y j = y (ix1 (j 0)) :=
  broadcastInDim_apply _ Facts₀.bcast_S8192_S8192x1_0 y j (ix1 (j 0)) (fun a => match a with
    | ⟨0, _⟩ => by show (j 0).val = if (8192 : Nat) = 1 then 0 else (j 0).val; rw [if_neg (by decide)])

/-- The host's sum along the rows of a matrix, from an initial scalar, at row `r`. -/
theorem rowsum_apply (x : FVec Ideal S8192x256 .f32) (v : FVec Ideal S_ .f32) (r : Fin 8192) :
    Host.reduceAdd (F := Ideal) x v Facts₀.reducesTo_S8192x256_S8192_d1 Facts₀.h_S_ (ix1 r)
      = v (Shape.Idx.first Facts₀.h_S_) + ∑ k : Fin 256, x (ix2 r k) := by
  simp only [Host.reduceAdd, Ideal.hostReduceAdd_def]
  rw [Ideal.hostReduceAdd_single Facts₀.reducesTo_S8192x256_S8192_d1 (by decide)]
  refine congrArg (_ + ·) (Finset.sum_congr rfl fun k _ => ?_)
  exact congrArg x (funext fun a => Fin.ext (by match a with | ⟨0, _⟩ => rfl | ⟨1, _⟩ => rfl))

/-- The array window 1 stages holds, at `(r, 0)`, the squared norm of row `r`. -/
theorem V_sqn (c : Dev nD) (j : S8192x1.Idx) :
    V m c main_v2 j = Cert.Spec.sqn (m ((c.tc : Thread nD τ).loc main_arg0)) (j 0) := by
  refine (congrFun (V_sqn_term m c) j).trans ?_
  refine (column_apply _ j).trans ?_
  refine (rowsum_apply _ _ (j 0)).trans ?_
  rfl

/-- The array window 2 stages holds the mask's bits widened to thirty-two. -/
theorem V_mask (c : Dev nD) (j : S8192x8192.Idx) :
    V m c main_v3 j = (m ((c.tc : Thread nD τ).loc main_arg1) j).setWidth 32 := by
  have e : (V m c main_v3 : S8192x8192.Idx → BitVec 32)
      = extui 32 (m ((c.tc : Thread nD τ).loc main_arg1)) Facts₀.natLt_1_32 := by
    show StableHlo.after hostOps0 (fun b => m (c, b)) (Proc.devRef .tc main_v3) = _
    after_results
  exact congrFun e j

/-- The first and the second half of the rows of the embedding matrix. -/
def loRows (E : FVec Ideal S8192x256 .f32) : FVec Ideal S4096x256 .f32 :=
  extractStridedSlice S4096x256 ![0, 0] E Facts₀.slices_S8192x256_S4096x256_0_0
def hiRows (E : FVec Ideal S8192x256 .f32) : FVec Ideal S4096x256 .f32 :=
  extractStridedSlice S4096x256 ![4096, 0] E Facts₀.slices_S8192x256_S4096x256_4096_0

/-- The anchor-positive distances as the host lines compute them: the root of the clamped,
    regularised sum of squared differences of the two halves of the rows. -/
def apVec (E : FVec Ideal S8192x256 .f32) : FVec Ideal S4096 .f32 :=
  Host.sqrt (F := Ideal)
    (addf
      (maximumf
        (Host.reduceAdd (F := Ideal) (mulf (subf (loRows E) (hiRows E)) (subf (loRows E) (hiRows E)))
          (constant (F := Ideal) S_ .f32 0x00000000#32) Facts₀.reducesTo_S4096x256_S4096_d1 Facts₀.h_S_)
        (broadcastInDim S4096 ![] Facts₀.bcast_S_S4096 (constant (F := Ideal) S_ .f32 0x00000000#32)))
      (broadcastInDim S4096 ![] Facts₀.bcast_S_S4096 (constant (F := Ideal) S_ .f32 0x2B8CBCCC#32)))

/-- The region's output column as a vector. -/
def colVec (A : FVec Ideal S8192x1 .f32) : FVec Ideal S8192 .f32 :=
  shapeCast S8192 A Facts₀.shapeCasts_S8192x1_S8192

/-- The per-anchor vector as the host lines compute it from the region's output column `A` and
    the embedding matrix `E`. -/
def anchorVec (A : FVec Ideal S8192x1 .f32) (E : FVec Ideal S8192x256 .f32) : FVec Ideal S4096 .f32 :=
  addf
    (Host.log (F := Ideal)
      (addf (extractStridedSlice S4096 ![0] (colVec A) Facts₀.slices_S8192_S4096_0)
        (extractStridedSlice S4096 ![4096] (colVec A) Facts₀.slices_S8192_S4096_4096)))
    (apVec E)

/-- The column read as a vector: entry `r` is the column's entry `(r, 0)`. -/
theorem colVec_apply (A : FVec Ideal S8192x1 .f32) (r : Fin 8192) :
    colVec A (ix1 r) = A (ix2 r (0 : Fin 1)) := by
  unfold colVec
  refine shapeCast_apply A Facts₀.shapeCasts_S8192x1_S8192 (ix1 r) (ix2 r (0 : Fin 1)) ?_
  rw [Shape.rowMajor_val_two, Shape.rowMajor_val_one]
  show r.val * 1 + 0 = r.val
  omega

/-- The halves of a vector of 8192 entries. -/
theorem loHalf_apply (y : FVec Ideal S8192 .f32) (a : Fin 4096) :
    extractStridedSlice S4096 ![0] y Facts₀.slices_S8192_S4096_0 (ix1 a) = y (ix1 (Cert.Spec.lo a)) :=
  extractStridedSlice_apply ![0] y Facts₀.slices_S8192_S4096_0 (ix1 a) (ix1 (Cert.Spec.lo a)) (fun ax => match ax with
    | ⟨0, _⟩ => by show a.val = 0 + a.val; omega)
theorem hiHalf_apply (y : FVec Ideal S8192 .f32) (a : Fin 4096) :
    extractStridedSlice S4096 ![4096] y Facts₀.slices_S8192_S4096_4096 (ix1 a) = y (ix1 (Cert.Spec.hi a)) :=
  extractStridedSlice_apply ![4096] y Facts₀.slices_S8192_S4096_4096 (ix1 a) (ix1 (Cert.Spec.hi a)) (fun ax => match ax with
    | ⟨0, _⟩ => by show a.val + 4096 = 4096 + a.val; omega)

/-- The halves of the rows of the embedding matrix. -/
theorem loRows_apply (E : FVec Ideal S8192x256 .f32) (a : Fin 4096) (k : Fin 256) :
    loRows E (ix2 a k) = E (ix2 (Cert.Spec.lo a) k) :=
  extractStridedSlice_apply ![0, 0] E Facts₀.slices_S8192x256_S4096x256_0_0 (ix2 a k) (ix2 (Cert.Spec.lo a) k) (fun ax => match ax with
    | ⟨0, _⟩ => by show a.val = 0 + a.val; omega
    | ⟨1, _⟩ => by show k.val = 0 + k.val; omega)
theorem hiRows_apply (E : FVec Ideal S8192x256 .f32) (a : Fin 4096) (k : Fin 256) :
    hiRows E (ix2 a k) = E (ix2 (Cert.Spec.hi a) k) :=
  extractStridedSlice_apply ![4096, 0] E Facts₀.slices_S8192x256_S4096x256_4096_0 (ix2 a k) (ix2 (Cert.Spec.hi a) k) (fun ax => match ax with
    | ⟨0, _⟩ => by show a.val + 4096 = 4096 + a.val; omega
    | ⟨1, _⟩ => by show k.val = 0 + k.val; omega)

/-- The host's sum along the rows of a matrix of 4096 rows, from an initial scalar, at row `a`. -/
theorem rowsum4096_apply (x : FVec Ideal S4096x256 .f32) (v : FVec Ideal S_ .f32) (a : Fin 4096) :
    Host.reduceAdd (F := Ideal) x v Facts₀.reducesTo_S4096x256_S4096_d1 Facts₀.h_S_ (ix1 a)
      = v (Shape.Idx.first Facts₀.h_S_) + ∑ k : Fin 256, x (ix2 a k) := by
  simp only [Host.reduceAdd, Ideal.hostReduceAdd_def]
  rw [Ideal.hostReduceAdd_single Facts₀.reducesTo_S4096x256_S4096_d1 (by decide)]
  refine congrArg (_ + ·) (Finset.sum_congr rfl fun k _ => ?_)
  exact congrArg x (funext fun ax => Fin.ext (by match ax with | ⟨0, _⟩ => rfl | ⟨1, _⟩ => rfl))

/-- A scalar spread over the 4096 anchors. -/
theorem spread_apply (v : FVec Ideal S_ .f32) (i : S4096.Idx) :
    broadcastInDim S4096 ![] Facts₀.bcast_S_S4096 v i = v ix0 :=
  broadcastInDim_apply _ Facts₀.bcast_S_S4096 v i ix0 (fun ax => ax.elim0)

/-- The anchor-positive distance of anchor `a` as the host lines compute it. -/
theorem apVec_apply (E : FVec Ideal S8192x256 .f32) (a : Fin 4096) :
    apVec E (ix1 a) = Cert.Spec.apKer E a := by
  unfold apVec Cert.Spec.apKer
  show Ideal.sqrt (max (Host.reduceAdd (F := Ideal) (mulf (subf (loRows E) (hiRows E)) (subf (loRows E) (hiRows E)))
        (constant (F := Ideal) S_ .f32 0x00000000#32) Facts₀.reducesTo_S4096x256_S4096_d1 Facts₀.h_S_ (ix1 a))
      (broadcastInDim S4096 ![] Facts₀.bcast_S_S4096 (constant (F := Ideal) S_ .f32 0x00000000#32) (ix1 a))
      + broadcastInDim S4096 ![] Facts₀.bcast_S_S4096 (constant (F := Ideal) S_ .f32 0x2B8CBCCC#32) (ix1 a)) = _
  rw [rowsum4096_apply, spread_apply, spread_apply]
  refine congrArg Ideal.sqrt (congrArg (· + _) (congrArg (max · _) (congrArg (_ + ·) (Finset.sum_congr rfl fun k _ => ?_))))
  show (loRows E (ix2 a k) - hiRows E (ix2 a k)) * (loRows E (ix2 a k) - hiRows E (ix2 a k)) = _
  rw [loRows_apply, hiRows_apply]

/-- The per-anchor vector of the host lines is the specification's, over the column's entries. -/
theorem anchorVec_eq (A : FVec Ideal S8192x1 .f32) (E : FVec Ideal S8192x256 .f32) :
    anchorVec A E = Cert.Spec.jvec (fun r => A (ix2 r (0 : Fin 1))) (Cert.Spec.apKer E) := by
  funext i
  obtain ⟨a, rfl⟩ : ∃ a : Fin 4096, i = ix1 a := ⟨i 0, eq_ix1 i⟩
  unfold anchorVec Cert.Spec.jvec
  show Ideal.log (extractStridedSlice S4096 ![0] (colVec A) Facts₀.slices_S8192_S4096_0 (ix1 a)
      + extractStridedSlice S4096 ![4096] (colVec A) Facts₀.slices_S8192_S4096_4096 (ix1 a)) + apVec E (ix1 a) = _
  rw [loHalf_apply, hiHalf_apply, colVec_apply, colVec_apply, apVec_apply]

/-- What the host lines after the region leave in the result buffer, when the region's output
    column holds `R`: the closing mean of the per-anchor values `log (R i + R (i + 4096))` plus the
    anchor-positive distance. -/
theorem tail_eq (c : Dev nD) (R : Fin 8192 → EReal)
    (hR : ∀ j : S8192x1.Idx, (dats m 0 c).arrAt 3 cfg0.N j = R (j 0)) :
    Pipeline.afterTail₀ cfgs (dats m) 0 (V0 m) [hostOps1, hostOps1_1, hostOps1_2] c main_v33
      = Cert.Spec.tail Facts₀.bcast_S_S4096 Facts₀.reducesTo_S4096_S_d0 Facts₀.h_S_ Facts₀.natLt_1_32
          (Cert.Spec.jvec R (Cert.Spec.apKer (m ((c.tc : Thread nD τ).loc main_arg0)))) := by
  have h4 : Pipeline.withArrays (cfgs 0).spec c (V0 m c) (fun w => (dats m 0 c).arrAt w (cfgs 0).N) (Proc.devRef .tc main_v4)
      = (dats m 0 c).arrAt 3 cfg0.N := Pipeline.withArrays_arr spec0 launch0.win.arr_inj c _ _ 3
  have h0 : Pipeline.withArrays (cfgs 0).spec c (V0 m c) (fun w => (dats m 0 c).arrAt w (cfgs 0).N) (Proc.devRef .tc main_arg0)
      = m ((c.tc : Thread nD τ).loc main_arg0) :=
    (Pipeline.withArrays_arr spec0 launch0.win.arr_inj c _ _ 0).trans
      (((dats m 0 c).arrAt_in 0 rfl _).trans ((A_eq m c 0).trans (V_main_arg0 m c)))
  unfold Pipeline.afterTail₀
  generalize Pipeline.withArrays (cfgs 0).spec c (V0 m c) (fun w => (dats m 0 c).arrAt w (cfgs 0).N) = W at h4 h0 ⊢
  simp only [hostOps1, hostOps1_1, hostOps1_2, List.flatten_cons, List.flatten_nil, List.append_nil, List.cons_append, List.nil_append]
  show StableHlo.after _ _ (Proc.devRef .tc main_v33) = _
  after_results_simp
  refine Eq.trans (b := Cert.Spec.tail Facts₀.bcast_S_S4096 Facts₀.reducesTo_S4096_S_d0 Facts₀.h_S_ Facts₀.natLt_1_32
      (anchorVec (W (Proc.devRef .tc main_v4)) (W (Proc.devRef .tc main_arg0)))) rfl ?_
  rw [anchorVec_eq, h4, h0]
  exact congrArg (Cert.Spec.tail _ _ _ _) (congrArg (Cert.Spec.jvec · _) (funext fun r => hR (ix2 r (0 : Fin 1))))

/-- The kernel program's run, with the region's output column named: every weakly fair
    execution terminates with the result buffer at the closing mean of the per-anchor values over
    the column's entries, and the two argument arrays as launched. -/
theorem run_of_final (R : Dev nD → Fin 8192 → EReal)
    (hR : ∀ c (j : S8192x1.Idx), (dats m 0 c).arrAt 3 cfg0.N j = R c (j 0)) :
    θ_run defs (onTc (τ := τ) (main (F := Ideal))) ⟨m, fun _ => 0, ρ⟩ (fun r => ∀ c : Dev nD,
      r.2.mem ((c.tc : Thread nD τ).loc main_v33)
          = Cert.Spec.tail Facts₀.bcast_S_S4096 Facts₀.reducesTo_S4096_S_d0 Facts₀.h_S_ Facts₀.natLt_1_32
              (Cert.Spec.jvec (R c) (Cert.Spec.apKer (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v33 (Pipeline.mem_restRefs_of main_v33 (by decide) (by decide))).trans (tail_eq m c (R c) (hR c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelSide

end
-- ==== Proof.KernelPieces.lean ====
/-
  What the kernel body leaves in its accumulator and in its output block, case by case.

  At every grid point the body computes the masked tile of exponentials for the point's row tile and
  column tile (`tileVal`) and adds each row's sum over the tile's columns to the accumulator column it
  finds (`step`).  At the first column tile the accumulator it finds is the zero column it has just
  stored; at the last column tile the accumulator it leaves is also what it stores into the output
  block.  Each case's stores cover the whole column, so what is read back is the last store's value.
-/
import proofs.«181075_j26792005992920_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelSide

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- The masked tile of exponentials the body computes at grid point `i` from the whole embedding array `x0`, the column of squared norms `x1` and the mask tile `x2`. -/
def tileVal (i : grid0.Coords) (x0 : Vec F S8192x256 .f32) (x1 : Vec F S8192x1 .f32) (x2 : Vec F S1024x1024 .i32) : FVec F S1024x1024 .f32 :=
  k0_pay3 (View.ld x0 (Rect.unit (k0_off1 i) S1024x256.size (k0_off1_inb i))) (View.ld x0 (Rect.unit (k0_off2 i) S1024x256.size (k0_off2_inb i)))
    (View.ld x1 (Rect.unit (k0_off3 i) S1024x1.size (k0_off3_inb i))) (View.ld x1 (Rect.unit (k0_off4 i) S1024x1.size (k0_off4_inb i))) x2

/-- The accumulator column after the body at grid point `i`: the column `xs0` it found plus the row sums of the masked tile. -/
def step (i : grid0.Coords) (x0 : Vec F S8192x256 .f32) (x1 : Vec F S8192x1 .f32) (x2 : Vec F S1024x1024 .i32) (xs0 : Vec F S1024x1 .f32) : Vec F S1024x1 .f32 :=
  k0_pay1 (tileVal i x0 x1 x2) xs0

/-- A middle column tile: the accumulator found plus the tile's row sums. -/
theorem sout_B (c : Dev nD) (i : grid0.Coords) (arg2 : Memref sig .tc .vmem S8192x256 .f32) (harg2 : arg2.IsWhole) (arg3 : Memref sig .tc .vmem S8192x1 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S8192x256 .f32) (x1 : Vec F S8192x1 .f32) (x2 : Vec F S1024x1024 .i32) (xs0 : Vec F S1024x1 .f32) :
    sout0_B_0 c i arg2 harg2 arg3 harg3 arg4 harg4 arg5 harg5 arg6 harg6 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_run_names
  rw [View.canon_unit_zero hz]
  simp only [View.readAt_eq_ld, harg2.read_unread, harg3.read_unread, harg4.read_unread, harg6.read_unread, View.ld_unit_zero (S := S1024x1) hz, View.ld_unit_zero (S := S1024x1024) hz]
  rfl

/-- The first column tile: the zero column just stored plus the tile's row sums. -/
theorem sout_A (c : Dev nD) (i : grid0.Coords) (arg2 : Memref sig .tc .vmem S8192x256 .f32) (harg2 : arg2.IsWhole) (arg3 : Memref sig .tc .vmem S8192x1 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S8192x256 .f32) (x1 : Vec F S8192x1 .f32) (x2 : Vec F S1024x1024 .i32) :
    sout0_A_0 c i arg2 harg2 arg3 harg3 arg4 harg4 arg5 harg5 arg6 harg6 hc0 hc1 x0 x1 x2 = step i x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_run_names
  rw [View.canon_cons_unit_zero (S := S1024x1) hz, View.readCov_unit_zero (S := S1024x1) _ hz]
  simp only [View.readAt_eq_ld, harg2.read_unread, harg3.read_unread, harg4.read_unread, harg6.read_unread, View.ld_unit_zero (S := S1024x1) hz, View.ld_unit_zero (S := S1024x1024) hz]
  rfl

/-- The last column tile leaves the same in the accumulator, -/
theorem sout_C (c : Dev nD) (i : grid0.Coords) (arg2 : Memref sig .tc .vmem S8192x256 .f32) (harg2 : arg2.IsWhole) (arg3 : Memref sig .tc .vmem S8192x1 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S8192x256 .f32) (x1 : Vec F S8192x1 .f32) (x2 : Vec F S1024x1024 .i32) (xs0 : Vec F S1024x1 .f32) :
    sout0_C_0 c i arg2 harg2 arg3 harg3 arg4 harg4 arg5 harg5 arg6 harg6 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_run_names
  rw [View.canon_unit_zero hz]
  simp only [View.readAt_eq_ld, harg2.read_unread, harg3.read_unread, harg4.read_unread, harg6.read_unread, View.ld_unit_zero (S := S1024x1) hz, View.ld_unit_zero (S := S1024x1024) hz]
  rfl

/-- and stores that accumulator into the output block. -/
theorem out_C (c : Dev nD) (i : grid0.Coords) (arg2 : Memref sig .tc .vmem S8192x256 .f32) (harg2 : arg2.IsWhole) (arg3 : Memref sig .tc .vmem S8192x1 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S8192x256 .f32) (x1 : Vec F S8192x1 .f32) (x2 : Vec F S1024x1024 .i32) (xs0 : Vec F S1024x1 .f32) :
    out0_C_3 c i arg2 harg2 arg3 harg3 arg4 harg4 arg5 harg5 arg6 harg6 hc0 hc1 x0 x1 x2 xs0 = step i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_run_names
  rw [View.canon_unit_zero hz, View.readCov_unit_zero (S := S1024x1) _ hz]
  simp only [View.readAt_eq_ld, harg2.read_unread, harg3.read_unread, harg4.read_unread, harg6.read_unread, View.ld_unit_zero (S := S1024x1) hz, View.ld_unit_zero (S := S1024x1024) hz]
  rfl

end Cert.KernelSide
end
-- ==== Proof.KernelPayload.lean ====
/-
  The arithmetic of the kernel body, read at one element, over the extended reals.

  The body takes a tile of 1024 rows `x` and a tile of 1024 rows `y` of the embedding matrix, their
  squared norms `a` and `b` (columns of height 1024) and a 1024 x 1024 tile `w` of the mask, and forms
  at `(p, q)` the masked value `exp (1/2 - sqrt (max (a p + b q - 2 sum_k x[p,k] y[q,k]) 0 + eps))`
  (zero where the mask word is zero): the matrix product is the plain sum over the 256 features, the
  changes of float format are the identity.  It then adds to an accumulator column `s`, at row `p`,
  the sum of row `p` of that tile over its 1024 columns.
-/
import proofs.«181075_j26792005992920_2_alg».proof.Proof.Gen.KernelIdeal.Skeleton
import proofs.«181075_j26792005992920_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelSide

open Cert.KernelIdeal Cert.KernelIdeal.Gen

/-- The square root, the exponential and an integer comparison of arrays, read at an index. -/
theorem sqrt_at {s : Shape} {φ : FTy} (a : FVec Ideal s φ) (i : s.Idx) : sqrt a i = Ideal.sqrt (a i) := rfl
theorem exp_at {s : Shape} {φ : FTy} (a : FVec Ideal s φ) (i : s.Idx) : exp a i = Ideal.exp (a i) := rfl
theorem cmpi_at {s : Shape} {w : Nat} (pr : CmpIPredicate) (a b : IVec s w) (i : s.Idx) : cmpi pr a b i = Scalar.cmpi pr (a i) (b i) := rfl

/-- A column of height 1024 broadcast along the rows reads, at `(p, q)`, the column at `p`. -/
theorem bcast_col_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

theorem lhs_0 (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_1 (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_0 (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_1 (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q

/-- The matrix unit's product of two row tiles, contracted over the features into a zero accumulator, is at
    `(p, q)` the inner product of row `p` of the first with row `q` of the second. -/
theorem matmul_tile_apply {φ₁ φ₂ : FTy} (l : FVec Ideal S1024x256 φ₁) (r : FVec Ideal S1024x256 φ₂) (p q : Fin 1024) :
    matmul dot_S1024x256_S1024x256_S1024x1024_1_1_0_0_n_n none l r (constant S1024x1024 .f32 0x00000000#32) (ix2 p q) = ∑ k : Fin 256, l (ix2 p k) * r (ix2 q k) := by
  refine (Ideal.matmul_constant_zero_apply dot_S1024x256_S1024x256_S1024x1024_1_1_0_0_n_n none l r (ix2 p q)).trans ?_
  rw [← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ => exact lhs_0 _ _
    | ⟨1, _⟩ => exact (lhs_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ => exact rhs_0 _ _
    | ⟨1, _⟩ => exact (rhs_1 _ _).trans hk)
  rw [el, er]

/-- The masked tile at `(p, q)`. -/
theorem pay3_apply (v8 v10 : Vec Ideal S1024x256 .f32) (v12 v15 : Vec Ideal S1024x1 .f32) (v32 : Vec Ideal S1024x1024 .i32) (p q : Fin 1024) :
    k0_pay3 (F := Ideal) v8 v10 v12 v15 v32 (ix2 p q)
      = Scalar.select (Scalar.cmpi .ne (v32 (ix2 p q)) 0#32)
          (Ideal.exp (Cert.Spec.half - Ideal.sqrt (max (v12 (ix2 p (0 : Fin 1)) + v15 (ix2 q (0 : Fin 1))
              - Cert.Spec.two * ∑ k : Fin 256, v8 (ix2 p k) * v10 (ix2 q k)) Cert.Spec.zero + Cert.Spec.eps)))
          Cert.Spec.zero := by
  unfold k0_pay3
  dsimp only
  have h21 : broadcastTo S1024x1024 (shapeCast S1024x1 v12 shapeCasts_S1024x1_S1024x1) broadcasts_S1024x1_S1024x1024 (ix2 p q) = v12 (ix2 p (0 : Fin 1)) := by
    rw [shapeCast_self]; exact bcast_col_apply v12 p q
  have h22 : broadcastTo S1024x1024 (transpose S1x1024 [1, 0] (shapeCast S1024x1 v15 shapeCasts_S1024x1_S1024x1) transposes_S1024x1_p1_0_S1x1024) broadcasts_S1x1024_S1024x1024 (ix2 p q) = v15 (ix2 q (0 : Fin 1)) := by
    rw [shapeCast_self]
    exact (broadcastTo_1b_ab_apply _ broadcasts_S1x1024_S1024x1024 p q).trans (transpose_ix2_apply v15 transposes_S1024x1_p1_0_S1x1024 (0 : Fin 1) q)
  have h19 := matmul_tile_apply (truncf .bf16 v8 bitsLt_bf16_f32) (truncf .bf16 v10 bitsLt_bf16_f32) p q
  simp only [select_apply, exp_at, sqrt_at, subf_apply, addf_apply, mulf_apply, maximumf_apply, broadcast_apply, cmpi_at, constantI_apply, h21, h22, h19, truncf_apply]
  rfl

/-- The accumulation: at row `p` the accumulator plus the sum of row `p` of the tile. -/
theorem pay1_apply (v38 : FVec Ideal S1024x1024 .f32) (v39 : Vec Ideal S1024x1 .f32) (p : Fin 1024) :
    k0_pay1 (F := Ideal) v38 v39 (ix2 p (0 : Fin 1)) = v39 (ix2 p (0 : Fin 1)) + ∑ q : Fin 1024, v38 (ix2 p q) := by
  unfold k0_pay1
  dsimp only
  rw [shapeCast_self]
  refine congrArg (v39 (ix2 p (0 : Fin 1)) + ·) ?_
  refine (shapeCast_apply _ shapeCasts_S1024_S1024x1 (ix2 p (0 : Fin 1)) (ix1 p) ?_).trans ?_
  · rw [Shape.rowMajor_val_one, Shape.rowMajor_val_two]; show p.val = p.val * 1 + 0; omega
  · refine (Ideal.multiReduction_add_single v38 0x00000000#32 reduces_S1024x1024_S1024 (.inl rfl) rfl (ix1 p)).trans ?_
    refine Finset.sum_congr rfl fun k _ => ?_
    exact congrArg v38 (funext fun a => Fin.ext (by match a with | ⟨0, _⟩ => rfl | ⟨1, _⟩ => rfl))

end Cert.KernelSide

end
-- ==== Proof.KernelBlocks.lean ====
/-
  The kernel body's tile and accumulator step, and the windows' blocks, read at one element.

  Grid point `t` has row tile `t / 8` and column tile `t % 8`.  The body's loads take rows
  `1024 a + p` (row tile `a`) and `1024 b + q` (column tile `b`) of the whole embedding array and of
  the column of squared norms; the mask window hands it tile `(a, b)` of the mask.  So the masked
  tile at `(p, q)` is entry `(1024 a + p, 1024 b + q)` of the masked matrix of the specification,
  and one accumulator step adds column tile `b`'s row sums.
-/
import proofs.«181075_j26792005992920_2_alg».proof.Proof.KernelPieces
import proofs.«181075_j26792005992920_2_alg».proof.Proof.KernelPayload

noncomputable section

open Idealize.ShloMosaic Idealize.ShloMosaic.TcCoe Idealize.SL.Sem Idealize.ShloMosaic.ValueIdx
open Idealize.ShloMosaic.Pipeline (Dat)
open scoped BigOperators

namespace Cert.KernelSide

open Cert.KernelIdeal Cert.KernelIdeal.Gen Cert.Spec

/-- A load of 1024 rows from row `1024 a` of the embedding array reads, at `(p, k)`, row `1024 a + p`. -/
theorem ld_rows256 (x : Vec Ideal S8192x256 .f32) (off : Fin 2 → Nat) (a : Fin 8) (hoff : off = ![1024 * a.val, 0])
    (inb : ∀ ax, off ax + S1024x256.size ax ≤ S8192x256.size ax) (p : Fin 1024) (k : Fin 256) :
    View.ld x (Rect.unit off S1024x256.size inb) (ix2 p k) = x (ix2 (colAt a p) k) := by
  subst hoff
  show x _ = x _
  refine congrArg x (funext fun ax => Fin.ext ?_)
  match ax with
  | ⟨0, _⟩ => show 1024 * a.val + 1 * p.val = 1024 * a.val + p.val; omega
  | ⟨1, _⟩ => show 0 + 1 * k.val = k.val; omega

/-- The same of the column of squared norms. -/
theorem ld_rows1 (x : Vec Ideal S8192x1 .f32) (off : Fin 2 → Nat) (a : Fin 8) (hoff : off = ![1024 * a.val, 0])
    (inb : ∀ ax, off ax + S1024x1.size ax ≤ S8192x1.size ax) (p : Fin 1024) :
    View.ld x (Rect.unit off S1024x1.size inb) (ix2 p (0 : Fin 1)) = x (ix2 (colAt a p) (0 : Fin 1)) := by
  subst hoff
  show x _ = x _
  refine congrArg x (funext fun ax => Fin.ext ?_)
  match ax with
  | ⟨0, _⟩ => show 1024 * a.val + 1 * p.val = 1024 * a.val + p.val; omega
  | ⟨1, _⟩ => show 0 + 1 * 0 = 0; omega

/-- A mask bit widened to a word and compared with zero is the bit. -/
theorem mask_word (b : BitVec 1) : Scalar.cmpi .ne (b.setWidth 32) 0#32 = b := by
  rcases BitVec.eq_zero_or_eq_one b with h | h <;> subst h <;> decide

/-- The masked tile at `(p, q)`, at row tile `a` and column tile `b`, is entry `(1024 a + p, 1024 b + q)` of the masked
    matrix: when the body's first input is the embedding array `E`, its second the squared norms of `E`'s rows and its
    third tile `(a, b)` of the mask `M` widened to words. -/
theorem tileVal_spec (i : grid0.Coords) (a b : Fin 8) (ha : (i 0).val = a.val) (hb : (i 1).val = b.val)
    (E : EArr) (M : MArr) (x0 : Vec Ideal S8192x256 .f32) (x1 : Vec Ideal S8192x1 .f32) (x2 : Vec Ideal S1024x1024 .i32)
    (h0 : x0 = E) (h1 : ∀ r : Fin 8192, x1 (ix2 r (0 : Fin 1)) = sqn E r)
    (h2 : ∀ p q : Fin 1024, x2 (ix2 p q) = (M (ix2 (colAt a p) (colAt b q))).setWidth 32) (p q : Fin 1024) :
    tileVal i x0 x1 x2 (ix2 p q) = term E M (colAt a p) (colAt b q) := by
  subst h0
  have o1 : k0_off1 i = ![1024 * a.val, 0] := by rw [k0_off1_eq, ha]
  have o2 : k0_off2 i = ![1024 * b.val, 0] := by rw [k0_off2_eq, hb]
  have o3 : k0_off3 i = ![1024 * a.val, 0] := by rw [k0_off3_eq, ha]
  have o4 : k0_off4 i = ![1024 * b.val, 0] := by rw [k0_off4_eq, hb]
  unfold tileVal
  rw [pay3_apply, ld_rows1 x1 _ a o3 _ p, ld_rows1 x1 _ b o4 _ q, h1, h1, h2, mask_word]
  simp only [ld_rows256 x0 _ a o1 _ p, ld_rows256 x0 _ b o2 _ q]
  rfl

/-- One accumulator step at row tile `a`, column tile `b`: from the accumulator after `b` column tiles to the one after
    `b + 1`. -/
theorem step_spec (i : grid0.Coords) (a b : Fin 8) (ha : (i 0).val = a.val) (hb : (i 1).val = b.val)
    (E : EArr) (M : MArr) (x0 : Vec Ideal S8192x256 .f32) (x1 : Vec Ideal S8192x1 .f32) (x2 : Vec Ideal S1024x1024 .i32)
    (xs : Vec Ideal S1024x1 .f32)
    (h0 : x0 = E) (h1 : ∀ r : Fin 8192, x1 (ix2 r (0 : Fin 1)) = sqn E r)
    (h2 : ∀ p q : Fin 1024, x2 (ix2 p q) = (M (ix2 (colAt a p) (colAt b q))).setWidth 32)
    (hs : ∀ p : Fin 1024, xs (ix2 p (0 : Fin 1)) = kacc E M (colAt a p) b.val) (p : Fin 1024) :
    step i x0 x1 x2 xs (ix2 p (0 : Fin 1)) = kacc E M (colAt a p) (b.val + 1) := by
  unfold step
  rw [pay1_apply, hs p]
  show _ = kacc E M (colAt a p) b.val + (if h : b.val < 8 then tileSum E M (colAt a p) ⟨b.val, h⟩ else zero)
  rw [dif_pos b.isLt]
  refine congrArg (kacc E M (colAt a p) b.val + ·) ?_
  unfold tileSum
  exact Finset.sum_congr rfl fun q _ => tileVal_spec i a b ha hb E M x0 x1 x2 h0 h1 h2 p q

/-- The zero column the first column tile stores is the accumulator after no column tile. -/
theorem pay2_spec (E : EArr) (M : MArr) (r : Fin 8192) (p : Fin 1024) :
    k0_pay2 (F := Ideal) (ix2 p (0 : Fin 1)) = kacc E M r 0 := by
  unfold k0_pay2
  rw [shapeCast_self]
  rfl

/-! ## The windows' blocks -/

variable (m : (ℓ : Loc nD τ sig) → Buf (Elt Ideal) ℓ)

/-- Where each window's block sits at point `t`: the two whole-array windows at the origin, the mask window at
    tile `(t / 8, t % 8)`; and the point's coordinates. -/
theorem idx_facts : ∀ t : Fin cfg0.N,
    win0_0.index t 0 = 0 ∧ win0_0.index t 1 = 0 ∧ win0_1.index t 0 = 0 ∧ win0_1.index t 1 = 0
      ∧ win0_2.index t 0 = t.val / 8 ∧ win0_2.index t 1 = t.val % 8
      ∧ (grid0.coords t 0).val = t.val / 8 ∧ (grid0.coords t 1).val = t.val % 8 :=
  (by decide +kernel : ∀ t : Fin grid0.N, _)

/-- The embedding window's block is the whole array as the region finds it. -/
theorem iblk0_eq (c : Dev nD) (t : Fin cfg0.N) : (iblk m c 0 t : Vec Ideal S8192x256 .f32) = V m c main_arg0 := by
  funext y
  unfold iblk
  rw [View.read_apply]
  show V m c main_arg0 _ = V m c main_arg0 y
  refine congrArg (V m c main_arg0) (funext fun ax => Fin.ext ?_)
  obtain ⟨f00, f01, -⟩ := idx_facts t
  match ax with
  | ⟨0, _⟩ => show win0_0.index t 0 * 8192 + 1 * (y 0).val = (y 0).val; rw [f00]; omega
  | ⟨1, _⟩ => show win0_0.index t 1 * 256 + 1 * (y 1).val = (y 1).val; rw [f01]; omega

/-- The squared-norm window's block is the whole column as the region finds it. -/
theorem iblk1_eq (c : Dev nD) (t : Fin cfg0.N) : (iblk m c 1 t : Vec Ideal S8192x1 .f32) = V m c main_v2 := by
  funext y
  unfold iblk
  rw [View.read_apply]
  show V m c main_v2 _ = V m c main_v2 y
  refine congrArg (V m c main_v2) (funext fun ax => Fin.ext ?_)
  obtain ⟨-, -, f10, f11, -⟩ := idx_facts t
  match ax with
  | ⟨0, _⟩ => show win0_1.index t 0 * 8192 + 1 * (y 0).val = (y 0).val; rw [f10]; omega
  | ⟨1, _⟩ => show win0_1.index t 1 * 1 + 1 * (y 1).val = (y 1).val; rw [f11]; omega

/-- The mask window's block at point `t` is tile `(t / 8, t % 8)` of the widened mask as the region finds it. -/
theorem iblk2_apply (c : Dev nD) (t : Fin cfg0.N) (a b : Fin 8) (ha : t.val / 8 = a.val) (hb : t.val % 8 = b.val) (p q : Fin 1024) :
    (iblk m c 2 t : Vec Ideal S1024x1024 .i32) (ix2 p q) = V m c main_v3 (ix2 (colAt a p) (colAt b q)) := by
  unfold iblk
  rw [View.read_apply]
  show V m c main_v3 _ = V m c main_v3 _
  refine congrArg (V m c main_v3) (funext fun ax => Fin.ext ?_)
  obtain ⟨-, -, -, -, f20, f21, -⟩ := idx_facts t
  match ax with
  | ⟨0, _⟩ => show win0_2.index t 0 * 1024 + 1 * p.val = 1024 * a.val + p.val; rw [f20, ha]; omega
  | ⟨1, _⟩ => show win0_2.index t 1 * 1024 + 1 * q.val = 1024 * b.val + q.val; rw [f21, hb]; omega

end Cert.KernelSide

end
-- ==== Proof.KernelAcc.lean ====
/-
  The accumulation over the grid.  Grid point `n = 8 a + b` works on row tile `a` and column tile
  `b`.  By induction on the point, the accumulator column holds after point `n`, at row `p`, the
  partial row sum of row `1024 a + p` of the masked matrix over the first `b + 1` column tiles
  (`kacc … (b + 1)`): the first column tile starts from the zero column, every later one from what
  the point before left.  At the last column tile (`b = 7`) the output block receives the same
  column, the row sums over all 8 column tiles (`krow`).
-/
import proofs.«181075_j26792005992920_2_alg».proof.Proof.KernelBlocks

noncomputable section

open Idealize.ShloMosaic Idealize.ShloMosaic.TcCoe Idealize.SL.Sem Idealize.ShloMosaic.ValueIdx
open Idealize.ShloMosaic.Pipeline (Dat)
open scoped BigOperators

namespace Cert.KernelSide

open Cert.KernelIdeal Cert.KernelIdeal.Gen Cert.Spec

variable (m : (ℓ : Loc nD τ sig) → Buf (Elt Ideal) ℓ)

/-- The embedding window's block is the embedding argument. -/
theorem in0 (c : Dev nD) (t : Fin cfg0.N) :
    (iblk m c 0 t : Vec Ideal S8192x256 .f32) = m ((c.tc : Thread nD τ).loc main_arg0) :=
  (iblk0_eq m c t).trans (V_main_arg0 m c)

/-- The accumulator after point `n`, and the step's hypotheses at that point: what the three input blocks are. -/
theorem acc_eq (c : Dev nD)
    (hsq : ∀ j : S8192x1.Idx, V m c main_v2 j = sqn (m ((c.tc : Thread nD τ).loc main_arg0)) (j 0))
    (hmask : ∀ j : S8192x8192.Idx, V m c main_v3 j = (m ((c.tc : Thread nD τ).loc main_arg1) j).setWidth 32) :
    ∀ (n : ℕ) (h : n < cfg0.N) (a b : Fin 8) (ha : n / 8 = a.val) (hb : n % 8 = b.val) (p : Fin 1024),
      (outsAt0 m c n h).2 (ix2 p (0 : Fin 1))
        = kacc (m ((c.tc : Thread nD τ).loc main_arg0)) (m ((c.tc : Thread nD τ).loc main_arg1)) (colAt a p) (b.val + 1) := by
  intro n
  induction n with
  | zero =>
    intro h a b ha hb p
    have hN : cfg0.N = 64 := N_0
    obtain ⟨-, -, -, -, -, -, g0, g1⟩ := idx_facts (⟨0, h⟩ : Fin cfg0.N)
    rw [outsAt0_A m c ⟨0, h⟩ (by simp) (by simp)]
    dsimp only
    rw [sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)]
    refine step_spec (grid0.coords ⟨0, h⟩) a b (g0.trans ha) (g1.trans hb) _ _ (iblk m c 0 ⟨0, h⟩) (iblk m c 1 ⟨0, h⟩) (iblk m c 2 ⟨0, h⟩) (k0_pay2 (F := Ideal))
      (in0 m c ⟨0, h⟩) (fun r => ?_) (fun p' q' => ?_) (fun p' => ?_) p
    · rw [iblk1_eq]; exact hsq (ix2 r (0 : Fin 1))
    · exact (iblk2_apply m c ⟨0, h⟩ a b ha hb p' q').trans (hmask _)
    · have hb0 : b.val = 0 := by rw [← hb]
      rw [hb0]; exact pay2_spec _ _ _ p'
  | succ n ih =>
    intro h a b ha hb p
    have hN : cfg0.N = 64 := N_0
    obtain ⟨-, -, -, -, -, -, g0, g1⟩ := idx_facts ⟨n + 1, h⟩
    by_cases h0 : (n + 1) % 8 = 0
    · have h1 : ¬ (n + 1) % 8 = 7 := by omega
      rw [outsAt0_A m c ⟨n + 1, h⟩ h0 h1]
      dsimp only
      rw [sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)]
      refine step_spec (grid0.coords ⟨n + 1, h⟩) a b (g0.trans ha) (g1.trans hb) _ _ (iblk m c 0 ⟨n + 1, h⟩) (iblk m c 1 ⟨n + 1, h⟩) (iblk m c 2 ⟨n + 1, h⟩) (k0_pay2 (F := Ideal))
        (in0 m c ⟨n + 1, h⟩) (fun r => ?_) (fun p' q' => ?_) (fun p' => ?_) p
      · rw [iblk1_eq]; exact hsq (ix2 r (0 : Fin 1))
      · exact (iblk2_apply m c ⟨n + 1, h⟩ a b ha hb p' q').trans (hmask _)
      · have hb0 : b.val = 0 := by rw [← hb]; exact h0
        rw [hb0]; exact pay2_spec _ _ _ p'
    · have hbpos : 0 < b.val := by omega
      have hprev : ∀ p' : Fin 1024, (outsAt0 m c n (Nat.lt_of_succ_lt h)).2 (ix2 p' (0 : Fin 1))
          = kacc (m ((c.tc : Thread nD τ).loc main_arg0)) (m ((c.tc : Thread nD τ).loc main_arg1)) (colAt a p') b.val := by
        intro p'
        have e := ih (Nat.lt_of_succ_lt h) a ⟨b.val - 1, by omega⟩ (by omega) (by show n % 8 = b.val - 1; omega) p'
        rw [e]; show kacc _ _ _ (b.val - 1 + 1) = _; rw [Nat.sub_add_cancel hbpos]
      by_cases h1 : (n + 1) % 8 = 7
      · rw [outsAt0_C m c ⟨n + 1, h⟩ h0 h1]
        dsimp only
        rw [sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _]
        refine step_spec (grid0.coords ⟨n + 1, h⟩) a b (g0.trans ha) (g1.trans hb) _ _ (iblk m c 0 ⟨n + 1, h⟩) (iblk m c 1 ⟨n + 1, h⟩) (iblk m c 2 ⟨n + 1, h⟩) _
          (in0 m c ⟨n + 1, h⟩) (fun r => ?_) (fun p' q' => ?_) (fun p' => hprev p') p
        · rw [iblk1_eq]; exact hsq (ix2 r (0 : Fin 1))
        · exact (iblk2_apply m c ⟨n + 1, h⟩ a b ha hb p' q').trans (hmask _)
      · rw [outsAt0_B m c ⟨n + 1, h⟩ h0 h1]
        dsimp only
        rw [sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _]
        refine step_spec (grid0.coords ⟨n + 1, h⟩) a b (g0.trans ha) (g1.trans hb) _ _ (iblk m c 0 ⟨n + 1, h⟩) (iblk m c 1 ⟨n + 1, h⟩) (iblk m c 2 ⟨n + 1, h⟩) _
          (in0 m c ⟨n + 1, h⟩) (fun r => ?_) (fun p' q' => ?_) (fun p' => hprev p') p
        · rw [iblk1_eq]; exact hsq (ix2 r (0 : Fin 1))
        · exact (iblk2_apply m c ⟨n + 1, h⟩ a b ha hb p' q').trans (hmask _)

/-- At the last column tile the output block holds the full row sums of its 1024 rows. -/
theorem out_eq (c : Dev nD)
    (hsq : ∀ j : S8192x1.Idx, V m c main_v2 j = sqn (m ((c.tc : Thread nD τ).loc main_arg0)) (j 0))
    (hmask : ∀ j : S8192x8192.Idx, V m c main_v3 j = (m ((c.tc : Thread nD τ).loc main_arg1) j).setWidth 32)
    (t : Fin cfg0.N) (h7 : t.val % 8 = 7) (a : Fin 8) (ha : t.val / 8 = a.val) (p : Fin 1024) :
    (outsAt0 m c t.val t.isLt).1 (ix2 p (0 : Fin 1))
      = krow (m ((c.tc : Thread nD τ).loc main_arg0)) (m ((c.tc : Thread nD τ).loc main_arg1)) (colAt a p) := by
  have hN : cfg0.N = 64 := N_0
  obtain ⟨-, -, -, -, -, -, g0, g1⟩ := idx_facts t
  have h0 : ¬ t.val % 8 = 0 := by omega
  have htpos : 0 < t.val := by omega
  rw [outsAt0_C m c t h0 h7]
  dsimp only
  rw [out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _]
  refine step_spec (grid0.coords t) a (7 : Fin 8) (g0.trans ha) (g1.trans h7) _ _ (iblk m c 0 t) (iblk m c 1 t) (iblk m c 2 t) _
    (in0 m c t) (fun r => ?_) (fun p' q' => ?_) (fun p' => ?_) p
  · rw [iblk1_eq]; exact hsq (ix2 r (0 : Fin 1))
  · exact (iblk2_apply m c t a 7 ha h7 p' q').trans (hmask _)
  · exact acc_eq m c hsq hmask (t.val - 1) _ a (6 : Fin 8) (by omega) (by show (t.val - 1) % 8 = 6; omega) p'

end Cert.KernelSide

end
-- ==== Proof.KernelFinal.lean ====
/-
  From the blocks to the array.  The output of the one grid is the column `f32[8192, 1]`, moved in
  blocks of 1024 rows; point `t = 8 i + j` of the 8 x 8 grid holds block `i`, and the block is
  written back at the last column tile only (`t % 8 = 7`).  If at each of those points the staging
  buffer holds rows `1024 i .. 1024 i + 1023` of one function `R` of the row, then after the run the
  array holds `R` at every row: row `r` lies in the block of point `8 (r / 1024) + 7`.
-/
import proofs.«181075_j26792005992920_2_alg».proof.Proof.Gen.KernelIdeal.Frame
import proofs.«181075_j26792005992920_2_alg».proof.Proof.Spec
import Idealize.ShloMosaic.Lib.Pipeline.Value
import Idealize.ShloMosaic.Lib.ValueIdx

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block index of the output column at point `t`: row tile `t / 8`, column `0`. -/
theorem out_index : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- The column whose entry at row `r` is `R r`. -/
abbrev colOf (R : Fin 8192 → EReal) : S8192x1.Idx → EReal := fun j => R (j 0)

/-- What a point that writes the output back writes is its block of the column of `R`: the
    block's row `p` sits at row `1024 (t / 8) + p` of the array. -/
theorem flushed_eq (c : Dev nD) (R : Fin 8192 → EReal)
    (hout : ∀ (t : Fin cfg0.N), t.val % 8 = 7 → ∀ p : Fin 1024,
      (outsAt0 m c t.val t.isLt).1 (ix2 p (0 : Fin 1))
        = R ⟨1024 * (t.val / 8) + p.val, by have := t.isLt; have : cfg0.N = 64 := N_0; omega⟩)
    (t : Fin cfg0.N) (hf : (cfg0.win 3).flush t = true) :
    (dats m 0 c).flushed 3 t = ((cfg0.win 3).blk t).view.read (Elt Ideal) (colOf R) := by
  show (cfg0.win 3).cut (grid0.coords t) ((dats m 0 c).after 3 t) = _
  rw [after0_3]
  have h7 : t.val % 8 = 7 := (flush0_3 t).mp hf
  obtain ⟨e0, e1⟩ := out_index t
  funext y
  show (outsAt0 m c t.val t.isLt).1 ((cfg0.win 3).xinj (grid0.coords t) y)
      = R ((((cfg0.win 3).blk t).view.emb y) 0)
  have hy0 : (y 0).val < 1024 := (y 0).isLt
  have hy1 : (y 1).val < 1 := (y 1).isLt
  have hx : (cfg0.win 3).xinj (grid0.coords t) y = ix2 (⟨(y 0).val, hy0⟩ : Fin 1024) (0 : Fin 1) := by
    funext a; apply Fin.ext
    match a with
    | ⟨0, _⟩ => rfl
    | ⟨1, _⟩ => show (y 1).val = 0; omega
  rw [hx, hout t h7 ⟨(y 0).val, hy0⟩]
  refine congrArg R (Fin.ext ?_)
  show 1024 * (t.val / 8) + (y 0).val = win0_3.index t (0 : Fin 2) * 1024 + 1 * (y 0).val
  rw [e0]; omega

/-- Row `r` of the column lies in the block of the point `8 (r / 1024) + 7`, which writes back. -/
theorem cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  let t : Fin cfg0.N := ⟨8 * ((i 0).val / 1024) + 7, by rw [hN]; omega⟩
  obtain ⟨e0, e1⟩ := out_index t
  have ht : t.val = 8 * ((i 0).val / 1024) + 7 := rfl
  refine ⟨t, (flush0_3 t).mpr (by rw [ht]; omega), ?_⟩
  show i ∈ ((View.whole main_v4).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- If every point that writes the output back holds its 1024 rows of `R`, the output column after
    the run holds `R` at every row. -/
theorem final_of_out (c : Dev nD) (R : Fin 8192 → EReal)
    (hout : ∀ (t : Fin cfg0.N), t.val % 8 = 7 → ∀ p : Fin 1024,
      (outsAt0 m c t.val t.isLt).1 (ix2 p (0 : Fin 1))
        = R ⟨1024 * (t.val / 8) + p.val, by have := t.isLt; have : cfg0.N = 64 := N_0; omega⟩) :
    ∀ j : S8192x1.Idx, (dats m 0 c).arrAt 3 cfg0.N j = R (j 0) := by
  intro j
  exact congrFun ((dats m 0 c).arrAt_eq_of_cover 3 (colOf R) (flushed_eq m c R hout) cover) j

end Cert.KernelSide

end
-- ==== Proof.RefValue.lean ====
/-
  The reference program's result as the specification's function of the two argument arrays.

  Read one operation at a time: the squared norm of a row is `0` plus the sum of the squares of its 256
  entries; the Gram entry of rows `r` and `c` is the inner product of the two rows (the transpose only
  swaps the two coordinates of the right operand); the distance matrix at `(r, c)` is
  `sqrt (max (sqn r + sqn c - 2 * gram r c) 0 + eps)`; the masked exponential is summed along each row.
  The anchor-positive distance is a gather from the distance matrix whose start indices are the pairs
  `(i, i + 4096)`: both components are non-negative and at most 8191, so neither the repair of
  negative indices nor the clamp changes them.  What follows the per-anchor values is the same chain of
  operations as the specification's `tail`, and is never opened.
-/
import proofs.«181075_j26792005992920_2_alg».proof.Proof.Gen.ReferenceIdeal.Read
import proofs.«181075_j26792005992920_2_alg».proof.Proof.Spec

noncomputable section

namespace Cert.RefSide

open Cert.ReferenceIdeal Cert.ReferenceIdeal.Gen Cert.ReferenceIdeal.Read
open Idealize.ShloMosaic Idealize.ShloMosaic.ValueIdx
open scoped BigOperators

/-- The embedding matrix and the mask as the reference program's arguments. -/
abbrev EArg : Type := (⟨S8192x256, .f32⟩ : BufTy).Contents (Elt Ideal)
abbrev MArg : Type := (⟨S8192x8192, .i1⟩ : BufTy).Contents (Elt Ideal)

/-! ## The index maps of the layout operations, at coordinates -/

theorem idx_v1_ix (r : Fin 8192) (k : Fin 256) : idx_main_v1 (ix1 r) k = ix2 r k :=
  funext fun a => Fin.ext (by match a with | ⟨0, _⟩ => rfl | ⟨1, _⟩ => rfl)

theorem idx_v4_ix (r : Fin 8192) (k : Fin 256) : idx_main_v4 (ix1 r) k = ix2 r k :=
  funext fun a => Fin.ext (by match a with | ⟨0, _⟩ => rfl | ⟨1, _⟩ => rfl)

theorem idx_v2_v6_ix (r c : Fin 8192) : idx_main_v2 (idx_main_v6 (ix2 r c)) = ix1 r :=
  funext fun a => Fin.ext (by match a with | ⟨0, _⟩ => rfl)

theorem idx_v5_v7_ix (r c : Fin 8192) : idx_main_v5 (idx_main_v7 (ix2 r c)) = ix1 c :=
  funext fun a => Fin.ext (by match a with | ⟨0, _⟩ => rfl)

theorem lidx_v10_ix (r c : Fin 8192) (k : Fin 256) : lidx_main_v10 (ix2 r c) k = ix2 r k :=
  funext fun a => Fin.ext (by match a with | ⟨0, _⟩ => rfl | ⟨1, _⟩ => rfl)

theorem idx_v9_ridx_v10_ix (r c : Fin 8192) (k : Fin 256) : idx_main_v9 (ridx_main_v10 (ix2 r c) k) = ix2 c k :=
  funext fun a => Fin.ext (by match a with | ⟨0, _⟩ => rfl | ⟨1, _⟩ => rfl)

theorem idx_v23_ix (r c : Fin 8192) : idx_main_v23 (ix1 r) c = ix2 r c :=
  funext fun a => Fin.ext (by match a with | ⟨0, _⟩ => rfl | ⟨1, _⟩ => rfl)

/-! ## The squared norms, the Gram entries and the distance matrix -/

/-- The first sum of squares of row `r` is the specification's squared norm. -/
theorem sqn_left (x0 : EArg) (r : Fin 8192) : val_main_v1 (F := Ideal) x0 (ix1 r) = Cert.Spec.sqn x0 r := by
  rw [val_main_v1_apply, val_main_cst_apply]
  unfold Cert.Spec.sqn Cert.Spec.zero
  refine congrArg (_ + ·) (Finset.sum_congr rfl fun k _ => ?_)
  rw [val_main_v0_apply, idx_v1_ix]
  rfl

/-- The second sum of squares (of the same matrix) is the same squared norm. -/
theorem sqn_right (x0 : EArg) (r : Fin 8192) : val_main_v4 (F := Ideal) x0 (ix1 r) = Cert.Spec.sqn x0 r := by
  rw [val_main_v4_apply, val_main_cst_0_apply]
  unfold Cert.Spec.sqn Cert.Spec.zero
  refine congrArg (_ + ·) (Finset.sum_congr rfl fun k _ => ?_)
  rw [val_main_v3_apply, idx_v4_ix]
  rfl

/-- The product of the matrix with its transpose, at `(r, c)`, is the inner product of rows `r` and `c`. -/
theorem gram_at (x0 : EArg) (r c : Fin 8192) : val_main_v10 (F := Ideal) x0 (ix2 r c) = Cert.Spec.gram x0 r c := by
  rw [val_main_v10_apply]
  unfold Cert.Spec.gram
  refine Finset.sum_congr rfl fun k _ => ?_
  rw [val_main_v9_apply, lidx_v10_ix, idx_v9_ridx_v10_ix]

/-- The distance matrix at `(r, c)`. -/
theorem dist_at (x0 : EArg) (r c : Fin 8192) : val_main_v18 (F := Ideal) x0 (ix2 r c) = Cert.Spec.dist x0 r c := by
  rw [val_main_v18_apply, val_main_v17_apply, val_main_v15_apply, val_main_v13_apply, val_main_v8_apply,
    val_main_v12_apply, val_main_v6_apply, val_main_v2_apply, val_main_v7_apply, val_main_v5_apply,
    idx_v2_v6_ix, idx_v5_v7_ix, sqn_left, sqn_right, gram_at, val_main_v11_apply, val_main_cst_1_apply,
    val_main_v14_apply, val_main_cst_2_apply, val_main_v16_apply, val_main_cst_3_apply]
  rfl

/-! ## The masked exponential and its row sums -/

/-- Entry `(r, c)` of the masked matrix. -/
theorem term_at (x0 : EArg) (x1 : MArg) (r c : Fin 8192) :
    val_main_v22 (F := Ideal) x0 x1 (ix2 r c) = Cert.Spec.term x0 x1 r c := by
  rw [val_main_v22_apply, val_main_v21_apply, val_main_v20_apply, dist_at, val_main_v19_apply, val_main_cst_4_apply,
    val_main_call0_v1_apply, val_main_call0_v0_apply, val_main_cst_5_apply]
  rfl

/-- The row sums: row `r` of the masked matrix summed over its 8192 columns, from `0`. -/
theorem rowsum_at (x0 : EArg) (x1 : MArg) (r : Fin 8192) :
    val_main_v23 (F := Ideal) x0 x1 (ix1 r) = Cert.Spec.rowsum x0 x1 r := by
  rw [val_main_v23_apply, val_main_cst_6_apply]
  unfold Cert.Spec.rowsum Cert.Spec.zero
  refine congrArg (_ + ·) (Finset.sum_congr rfl fun c _ => ?_)
  rw [idx_v23_ix, term_at]

/-! ## Words: the start indices of the gather

An anchor `i < 4096` and its positive `i + 4096` are below 8192: as 32-bit words read signed they are
themselves, so the comparison with zero that guards the repair of a negative index is false. -/

/-- A natural number below 8192, as a 32-bit word read signed, is itself. -/
theorem toInt_ofNat_small (n : Nat) (h : n < 8192) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

theorem toNat_toInt_ofNat_small (n : Nat) (h : n < 8192) : (BitVec.ofNat 32 n).toInt.toNat = n := by
  rw [toInt_ofNat_small n h]; exact Int.toNat_natCast n

/-- Such a word is not below zero in the signed order. -/
theorem cmpi_slt_zero_small (n : Nat) (h : n < 8192) : IntOp.cmpi .slt (BitVec.ofNat 32 n) 0#32 = 0#1 := by
  show BitVec.ofBool ((BitVec.ofNat 32 n).slt 0#32) = 0#1
  have hs : (BitVec.ofNat 32 n).slt 0#32 = false := by
    unfold BitVec.slt
    rw [toInt_ofNat_small n h]
    exact decide_eq_false (by simp)
  rw [hs]; rfl

theorem addi_ofNat_4096 (n : Nat) : IntOp.addi (BitVec.ofNat 32 n) 4096#32 = BitVec.ofNat 32 (n + 4096) := by
  show BitVec.ofNat 32 n + BitVec.ofNat 32 4096 = _
  exact (BitVec.ofNat_add n 4096).symm

/-- The first component of anchor `i`'s start index is the word `i`. -/
theorem start_fst (i : Fin 4096) : val_main_v31 (F := Ideal) (ix1 i) = BitVec.ofNat 32 i.val := by
  rw [val_main_v31_apply, val_main_v28_apply, val_main_v24_apply, val_main_v27_apply, val_main_c_7_apply]
  show Scalar.select (IntOp.cmpi .slt (BitVec.ofNat 32 i.val) 0#32) _ (BitVec.ofNat 32 i.val) = _
  rw [cmpi_slt_zero_small i.val (by have := i.isLt; omega), select_zero]

/-- The second component of anchor `i`'s start index is the word `i + 4096`. -/
theorem start_snd (i : Fin 4096) : val_main_v36 (F := Ideal) (ix1 i) = BitVec.ofNat 32 (i.val + 4096) := by
  have h26 : val_main_v26 (F := Ideal) (ix1 i) = BitVec.ofNat 32 (i.val + 4096) := by
    rw [val_main_v26_apply, val_main_v24_apply, val_main_v25_apply, val_main_c_apply]
    exact addi_ofNat_4096 i.val
  rw [val_main_v36_apply, val_main_v33_apply, val_main_v32_apply, val_main_c_9_apply, h26,
    cmpi_slt_zero_small (i.val + 4096) (by have := i.isLt; omega), select_zero]

/-- The array of start indices at `(i, 0)`: the first column of the concatenation. -/
theorem starts_col0 (i : Fin 4096) : val_main_v39 (F := Ideal) (ix2 i (0 : Fin 2)) = BitVec.ofNat 32 i.val := by
  unfold val_main_v39
  refine (concatenate_pair_apply_left (t := S4096x2) (s₁ := S4096x1) (s₂ := S4096x1) 1 (val_main_v37 (F := Ideal)) (val_main_v38 (F := Ideal))
    concatenates_S4096x1_S4096x1_S4096x2_d1 (ix2 i (0 : Fin 2)) rfl (ix2 i (0 : Fin 1))
    (fun b => match b with | ⟨0, _⟩ => rfl | ⟨1, _⟩ => rfl)).trans ?_
  rw [val_main_v37_apply]
  refine Eq.trans (congrArg (val_main_v31 (F := Ideal)) ?_) (start_fst i)
  exact funext fun a => Fin.ext (by match a with | ⟨0, _⟩ => rfl)

/-- The array of start indices at `(i, 1)`: the second column of the concatenation. -/
theorem starts_col1 (i : Fin 4096) : val_main_v39 (F := Ideal) (ix2 i (1 : Fin 2)) = BitVec.ofNat 32 (i.val + 4096) := by
  unfold val_main_v39
  refine (concatenate_pair_apply_right (t := S4096x2) (s₁ := S4096x1) (s₂ := S4096x1) 1 (val_main_v37 (F := Ideal)) (val_main_v38 (F := Ideal))
    concatenates_S4096x1_S4096x1_S4096x2_d1 (ix2 i (1 : Fin 2)) rfl rfl (ix2 i (0 : Fin 1))
    (fun b => match b with
      | ⟨0, _⟩ => fun _ => rfl
      | ⟨1, _⟩ => fun hne => absurd rfl hne)
    rfl).trans ?_
  rw [val_main_v38_apply]
  refine Eq.trans (congrArg (val_main_v36 (F := Ideal)) ?_) (start_snd i)
  exact funext fun a => Fin.ext (by match a with | ⟨0, _⟩ => rfl)

/-! ## The gather

Both operand axes are collapsed and both are named by the start index map, so result element `i` is the
operand at the start index itself: on each axis the index array's component, read signed and clamped to
`[0, 8191]`; there is no batching coordinate and no offset coordinate. -/

section Gather
variable {α : Type}

/-- The dimension numbers of a gather of single elements of an 8192 x 8192 operand at 4096 index pairs. -/
abbrev pairDims (wf : GatherDims.WF ⟨2, ![8192, 8192]⟩ ⟨2, ![4096, 2]⟩ ⟨1, ![4096]⟩ [] [0, 1] [] [0, 1] [] 1 ![1, 1]) :
    GatherDims ⟨2, ![8192, 8192]⟩ ⟨2, ![4096, 2]⟩ ⟨1, ![4096]⟩ where
  offsetDims := []
  collapsedSliceDims := [0, 1]
  operandBatchingDims := []
  startIndicesBatchingDims := []
  startIndexMap := [0, 1]
  indexVectorDim := 1
  sliceSizes := ![1, 1]
  wf := wf

/-- That gather read at `i`: the operand at the clamped pair of start components. -/
theorem gather_pair_apply {w : Nat}
    (wf : GatherDims.WF ⟨2, ![8192, 8192]⟩ ⟨2, ![4096, 2]⟩ ⟨1, ![4096]⟩ [] [0, 1] [] [0, 1] [] 1 ![1, 1])
    (x : (⟨2, ![8192, 8192]⟩ : Shape).Idx → α) (idx : IVec ⟨2, ![4096, 2]⟩ w) (i : Fin 4096) :
    Host.gather (pairDims wf) x idx (ix1 i)
      = x (ix2 (⟨min (idx (ix2 i (0 : Fin 2))).toInt.toNat 8191, by omega⟩ : Fin 8192)
               (⟨min (idx (ix2 i (1 : Fin 2))).toInt.toNat 8191, by omega⟩ : Fin 8192)) := by
  unfold Host.gather
  refine congrArg x (funext fun a => Fin.ext ?_)
  match a with
  | ⟨0, _⟩ =>
    show (pairDims wf).start (ix1 i) idx 0 + (pairDims wf).batchCoord (ix1 i) 0 + (pairDims wf).offCoord (ix1 i) 0 = _
    rw [GatherDims.batchCoord_eq_zero _ _ _ List.not_mem_nil,
      GatherDims.offCoord_eq_zero _ _ _ (fun h => ((GatherDims.mem_sKept _ _).mp h).1 (show _ ∈ ([0, 1] : List (Fin 2)) by decide))]
    simp only [Nat.add_zero]
    unfold GatherDims.start
    rw [dif_pos (show (0 : Fin 2) ∈ (pairDims wf).startIndexMap from (show (0 : Fin 2) ∈ ([0, 1] : List (Fin 2)) by decide))]
    have hsi : (pairDims wf).siIdx (ix1 i) ⟨List.idxOf (0 : Fin 2) (pairDims wf).startIndexMap,
        List.idxOf_lt_length_iff.2 (show (0 : Fin 2) ∈ ([0, 1] : List (Fin 2)) by decide)⟩ = ix2 i (0 : Fin 2) := by
      funext b; refine Fin.ext ?_
      match b with
      | ⟨0, _⟩ => rfl
      | ⟨1, _⟩ => rfl
    rw [hsi]
    rfl
  | ⟨1, _⟩ =>
    show (pairDims wf).start (ix1 i) idx 1 + (pairDims wf).batchCoord (ix1 i) 1 + (pairDims wf).offCoord (ix1 i) 1 = _
    rw [GatherDims.batchCoord_eq_zero _ _ _ List.not_mem_nil,
      GatherDims.offCoord_eq_zero _ _ _ (fun h => ((GatherDims.mem_sKept _ _).mp h).1 (show _ ∈ ([0, 1] : List (Fin 2)) by decide))]
    simp only [Nat.add_zero]
    unfold GatherDims.start
    rw [dif_pos (show (1 : Fin 2) ∈ (pairDims wf).startIndexMap from (show (1 : Fin 2) ∈ ([0, 1] : List (Fin 2)) by decide))]
    have hsi : (pairDims wf).siIdx (ix1 i) ⟨List.idxOf (1 : Fin 2) (pairDims wf).startIndexMap,
        List.idxOf_lt_length_iff.2 (show (1 : Fin 2) ∈ ([0, 1] : List (Fin 2)) by decide)⟩ = ix2 i (1 : Fin 2) := by
      funext b; refine Fin.ext ?_
      match b with
      | ⟨0, _⟩ => rfl
      | ⟨1, _⟩ => rfl
    rw [hsi]
    rfl

/-- The same, when the two start components are known to be the rows `p` and `q`. -/
theorem gather_pair_at {w : Nat}
    (wf : GatherDims.WF ⟨2, ![8192, 8192]⟩ ⟨2, ![4096, 2]⟩ ⟨1, ![4096]⟩ [] [0, 1] [] [0, 1] [] 1 ![1, 1])
    (x : (⟨2, ![8192, 8192]⟩ : Shape).Idx → α) (idx : IVec ⟨2, ![4096, 2]⟩ w) (i : Fin 4096) (p q : Fin 8192)
    (hp : (idx (ix2 i (0 : Fin 2))).toInt.toNat = p.val) (hq : (idx (ix2 i (1 : Fin 2))).toInt.toNat = q.val) :
    Host.gather (pairDims wf) x idx (ix1 i) = x (ix2 p q) := by
  rw [gather_pair_apply wf x idx i]
  refine congrArg x (funext fun a => Fin.ext ?_)
  match a with
  | ⟨0, _⟩ => show min (idx (ix2 i (0 : Fin 2))).toInt.toNat 8191 = p.val; rw [hp]; have := p.isLt; omega
  | ⟨1, _⟩ => show min (idx (ix2 i (1 : Fin 2))).toInt.toNat 8191 = q.val; rw [hq]; have := q.isLt; omega

end Gather

/-- The anchor-positive distance: the distance matrix at `(i, i + 4096)`. -/
theorem ap_at (x0 : EArg) (i : Fin 4096) : val_main_v40 (F := Ideal) x0 (ix1 i) = Cert.Spec.apRef x0 i := by
  unfold val_main_v40 Cert.Spec.apRef
  refine Eq.trans ?_ (dist_at x0 (Cert.Spec.lo i) (Cert.Spec.hi i))
  refine gather_pair_at gather_S8192x8192_S4096x2_S4096_n_01_n_n_01_1_11_wf (val_main_v18 (F := Ideal) x0)
    (val_main_v39 (F := Ideal)) i (Cert.Spec.lo i) (Cert.Spec.hi i) ?_ ?_
  · rw [starts_col0]; exact toNat_toInt_ofNat_small i.val (by have := i.isLt; omega)
  · rw [starts_col1]; exact toNat_toInt_ofNat_small (i.val + 4096) (by have := i.isLt; omega)

/-! ## The per-anchor values and the result -/

theorem idx_v41_ix (i : Fin 4096) : idx_main_v41 (ix1 i) = ix1 (Cert.Spec.lo i) :=
  funext fun a => Fin.ext (by match a with | ⟨0, _⟩ => rfl)

theorem idx_v42_ix (i : Fin 4096) : idx_main_v42 (ix1 i) = ix1 (Cert.Spec.hi i) :=
  funext fun a => Fin.ext (by match a with | ⟨0, _⟩ => exact Nat.add_comm 4096 i.val)

/-- The per-anchor values `log (rowsum i + rowsum (i + 4096)) + ap i`. -/
theorem jvec_eq (x0 : EArg) (x1 : MArg) :
    val_main_v45 (F := Ideal) x0 x1 = Cert.Spec.jvec (Cert.Spec.rowsum x0 x1) (Cert.Spec.apRef x0) := by
  funext j
  obtain ⟨i, rfl⟩ : ∃ i : Fin 4096, j = ix1 i := ⟨j 0, eq_ix1 j⟩
  rw [val_main_v45_apply, val_main_v44_apply, val_main_v43_apply, val_main_v41_apply, val_main_v42_apply,
    idx_v41_ix, idx_v42_ix, rowsum_at, rowsum_at, ap_at]
  rfl

/-- What the program does with the per-anchor values is the specification's `tail` of them: the same
    operations in the same order, so the two terms are the same once the stages are unfolded. -/
theorem tail_eq (x0 : EArg) (x1 : MArg) :
    val_main_v58 (F := Ideal) x0 x1
      = Cert.Spec.tail bcast_S_S4096 reducesTo_S4096_S_d0 h_S_ natLt_1_32 (val_main_v45 (F := Ideal) x0 x1) := by
  unfold val_main_v58 val_main_v57 val_main_v56 val_main_v55 val_main_v54 val_main_v53 val_main_v52 val_main_v51
    val_main_v50 val_main_v49 val_main_v48 val_main_v47 val_main_v46 val_main_cst_16 val_main_cst_15 val_main_c_14
    val_main_c_13 val_main_call1_v1 val_main_call1_v0 val_main_cst_12 val_main_cst_11 Cert.Spec.tail
  rfl

/-- The reference program's result is the specification's `tail` of the per-anchor values built from the
    one-sum row sums and the Gram-form anchor-positive distances. -/
theorem result_eq (x0 : (⟨Cert.ReferenceIdeal.S8192x256, .f32⟩ : BufTy).Contents (Elt Ideal))
    (x1 : (⟨Cert.ReferenceIdeal.S8192x8192, .i1⟩ : BufTy).Contents (Elt Ideal)) :
    Cert.ReferenceIdeal.Read.val_main_v58 (F := Ideal) x0 x1
      = Cert.Spec.tail Cert.ReferenceIdeal.Facts₀.bcast_S_S4096 Cert.ReferenceIdeal.Facts₀.reducesTo_S4096_S_d0
          Cert.ReferenceIdeal.Facts₀.h_S_ Cert.ReferenceIdeal.Facts₀.natLt_1_32
          (Cert.Spec.jvec (Cert.Spec.rowsum x0 x1) (Cert.Spec.apRef x0)) := by
  rw [← jvec_eq x0 x1]
  exact tail_eq x0 x1

end Cert.RefSide

end
-- ==== Proof.lean ====
/-
  A masked log-sum-exp margin loss over pairwise distances: the kernel program against its reference,
  over the extended reals.

  Both programs take an embedding matrix `E` (8192 rows of 256 numbers) and an 8192 x 8192 mask `M`.
  With `sqn r` the squared norm of row `r` and `gram r c` the inner product of rows `r` and `c`, the
  distance is `dist r c = sqrt (max (sqn r + sqn c - 2 gram r c) 0 + eps)`; row `r` of the masked
  matrix `exp (1/2 - dist r c)` is summed over its columns (`rowsum`); anchor `i < 4096` has positive
  `i + 4096` and value `j i = log (rowsum i + rowsum (i + 4096)) + dist i (i + 4096)`; the loss is the
  halved mean over the anchors of `max (j i) 0 ^ 2` (the specification module states these once).

  The reference computes the whole distance matrix, sums each row in one sum and reads the
  anchor-positive distances off the matrix.  The kernel program computes the squared norms on the
  host, lets a grid of 8 x 8 tiles accumulate each row's sum column tile by column tile into the rows'
  output block (written back at the last column tile), and takes the anchor-positive distance from
  the squared difference of the two rows instead.  Two laws join them: a sum over 8192 columns is the
  sum of its 8 tiles' sums accumulated from zero (addition of extended reals is associative and
  commutative: no finiteness needed), and for FINITE rows `sum (a - b)^2 = sum a^2 + sum b^2 - 2 sum a b`
  — the one place the precondition (every entry of `E` finite) is used.  After the per-anchor values
  both programs apply the same operations, carried as one function and never opened.

  The three frames are the generated frame runs (the reference's its generated run with the result
  dropped); the idealization rewrote nothing, so `preserves` is trivial.
-/
import proofs.«181075_j26792005992920_2_alg».proof.Defs
import proofs.«181075_j26792005992920_2_alg».proof.Proof.Gen.Kernel
import proofs.«181075_j26792005992920_2_alg».proof.Proof.Gen.Kernel.Skeleton
import proofs.«181075_j26792005992920_2_alg».proof.Proof.Gen.Kernel.Launch
import proofs.«181075_j26792005992920_2_alg».proof.Proof.Gen.Kernel.Points
import proofs.«181075_j26792005992920_2_alg».proof.Proof.Gen.Kernel.Frame
import proofs.«181075_j26792005992920_2_alg».proof.Proof.Gen.KernelIdeal
import proofs.«181075_j26792005992920_2_alg».proof.Proof.Gen.KernelIdeal.Skeleton
import proofs.«181075_j26792005992920_2_alg».proof.Proof.Gen.KernelIdeal.Launch
import proofs.«181075_j26792005992920_2_alg».proof.Proof.Gen.KernelIdeal.Points
import proofs.«181075_j26792005992920_2_alg».proof.Proof.Gen.KernelIdeal.Frame
import proofs.«181075_j26792005992920_2_alg».proof.Proof.Gen.ReferenceIdeal
import proofs.«181075_j26792005992920_2_alg».proof.Proof.Gen.ReferenceIdeal.Run
import proofs.«181075_j26792005992920_2_alg».proof.Proof.Gen.ReferenceIdeal.Read
import proofs.«181075_j26792005992920_2_alg».proof.Proof.Gen.Pre_finite_inputs
import proofs.«181075_j26792005992920_2_alg».proof.Proof.Spec
import proofs.«181075_j26792005992920_2_alg».proof.Proof.Algebra
import proofs.«181075_j26792005992920_2_alg».proof.Proof.Finite
import proofs.«181075_j26792005992920_2_alg».proof.Proof.KernelHost
import proofs.«181075_j26792005992920_2_alg».proof.Proof.KernelAcc
import proofs.«181075_j26792005992920_2_alg».proof.Proof.KernelFinal
import proofs.«181075_j26792005992920_2_alg».proof.Proof.RefValue
import Idealize.ShloMosaic.Adequacy
import Idealize.ShloMosaic.Init

noncomputable section

open Idealize.ShloMosaic Idealize.ShloMosaic.TcCoe Idealize.SL.Sem

/-! ## The kernel program's output array: the tiled row sums -/

namespace Cert.KernelSide

open Cert.KernelIdeal Cert.KernelIdeal.Gen

/-- After the region the kernel's output column holds, at row `r`, the sum of row `r` of the masked matrix accumulated
    over the 8 column tiles: each flushing point writes its row tile's accumulator, and the flushed blocks cover the
    column. -/
theorem kernel_final (m : (ℓ : Loc nD τ sig) → Buf (Elt Ideal) ℓ) (c : Dev nD) (j : S8192x1.Idx) :
    (dats m 0 c).arrAt 3 cfg0.N j
      = Cert.Spec.krow (m ((c.tc : Thread nD τ).loc main_arg0)) (m ((c.tc : Thread nD τ).loc main_arg1)) (j 0) :=
  final_of_out m c (Cert.Spec.krow (m ((c.tc : Thread nD τ).loc main_arg0)) (m ((c.tc : Thread nD τ).loc main_arg1)))
    (fun t h7 p => out_eq m c (V_sqn m c) (V_mask m c) t h7
      ⟨t.val / 8, by have := t.isLt; have : cfg0.N = 64 := N_0; omega⟩ rfl p) j

end Cert.KernelSide

/-! ## The claims -/

namespace Cert.Proof

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the per-anchor values built from the one-sum row sums and the Gram-form
    anchor-positive distances: the reference by its run read operation by operation, the kernel program by its frame run,
    the accumulation over the grid, and the two laws (the second under the precondition's finiteness). -/
theorem algebraic : Cert.algebraic_KernelIdeal_ReferenceIdeal := by
  intro m ρ m' ρ' hpre hagree
  refine ⟨fun c => Cert.Spec.tail Cert.KernelIdeal.Facts₀.bcast_S_S4096 Cert.KernelIdeal.Facts₀.reducesTo_S4096_S_d0
      Cert.KernelIdeal.Facts₀.h_S_ Cert.KernelIdeal.Facts₀.natLt_1_32
      (Cert.Spec.jvec
        (Cert.Spec.rowsum (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (Cert.Spec.apRef (m ((c.tc : Thread Cert.KernelIdeal.nD Cert.KernelIdeal.τ).loc Cert.KernelIdeal.main_arg0)))), ?_, ?_⟩
  · refine (θ_run Cert.KernelIdeal.defs _ _).mono (fun r h c => ⟨(h c).1.trans ?_, (h c).2⟩)
      (Cert.KernelSide.run_of_final m ρ
        (fun c => Cert.Spec.krow (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (fun c j => Cert.KernelSide.kernel_final m c j))
    have hfin := Cert.Fin.finite_of_pre _ _ (hpre c)
    have e1 : Cert.Spec.krow (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
        = Cert.Spec.rowsum (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
      funext fun r => Cert.Spec.krow_eq_rowsum _ _ r
    have e2 : Cert.Spec.apKer (m ((c.tc : Thread Cert.KernelIdeal.nD Cert.KernelIdeal.τ).loc Cert.KernelIdeal.main_arg0))
        = Cert.Spec.apRef (m ((c.tc : Thread Cert.KernelIdeal.nD Cert.KernelIdeal.τ).loc Cert.KernelIdeal.main_arg0)) :=
      funext fun i => Cert.Spec.apKer_eq_apRef _ hfin i
    rw [e1, e2]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v58_eq, Cert.RefSide.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
